-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x2 : Shape := ⟨2, ![262144, 2]⟩
abbrev S1024x2 : Shape := ⟨2, ![1024, 2]⟩
abbrev S3x1024 : Shape := ⟨2, ![3, 1024]⟩
abbrev S1024 : Shape := ⟨1, ![1024]⟩
abbrev S_ : Shape := ⟨0, ![]⟩

class Facts : Prop where
  bcast_S_S3x1024 : S_.BroadcastsInDim S3x1024 (![] : Fin 0 → Fin S3x1024.rank)
  reducesTo_S3x1024_S_d0_1 : S3x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : IVec S262144x2 32) (main_arg1 : IVec S1024x2 32) (main_arg2 : FVec F S3x1024 .f32) (main_arg3 : FVec F S1024 .f32) : IVec S_ 1 :=
  let main_v0 : FVec F S3x1024 .f32 := Host.absf main_arg2
  let main_cst : FVec F S_ .f32 := constant S_ .f32 0x7F800000#32
  let main_v1 : FVec F S3x1024 .f32 := broadcastInDim S3x1024 ![] bcast_S_S3x1024 main_cst
  let main_v2 : IVec S3x1024 1 := cmpf .olt main_v0 main_v1
  let main_c : IVec S_ 1 := constantI S_ 1 1#1
  let main_v3 : IVec S_ 1 := (fun x v => Host.reduce IntOp.andi x v reducesTo_S3x1024_S_d0_1 h_S_) main_v2 main_c
  let main_v4 : FVec F S1024 .f32 := Host.absf main_arg3
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S262144x2 : Shape := ⟨2, ![262144, 2]⟩
abbrev S1024x2 : Shape := ⟨2, ![1024, 2]⟩
abbrev S3x1024 : Shape := ⟨2, ![3, 1024]⟩
abbrev S1024 : Shape := ⟨1, ![1024]⟩
abbrev S1x1024 : Shape := ⟨2, ![1, 1024]⟩
abbrev S262144x3 : Shape := ⟨2, ![262144, 3]⟩
abbrev S2048x2 : Shape := ⟨2, ![2048, 2]⟩
abbrev S2048x3 : Shape := ⟨2, ![2048, 3]⟩
abbrev S2048 : Shape := ⟨1, ![2048]⟩
abbrev S2048x1 : Shape := ⟨2, ![2048, 1]⟩
abbrev S2x1024 : Shape := ⟨2, ![2, 1024]⟩
abbrev S2048x1024 : Shape := ⟨2, ![2048, 1024]⟩
abbrev S1024x3 : Shape := ⟨2, ![1024, 3]⟩

abbrev nBuf : Space → Nat
  | .hbm => 6
  | .vmem => 7
  | .smem => 0
  | _ => 0

abbrev bufTy : (tb : Table) → Fin (tcTables nBuf tb) → BufTy
  | .hbm, ⟨0, _⟩ => ⟨S262144x2, .i32⟩
  | .hbm, ⟨1, _⟩ => ⟨S1024x2, .i32⟩
  | .hbm, ⟨2, _⟩ => ⟨S3x1024, .f32⟩
  | .hbm, ⟨3, _⟩ => ⟨S1024, .f32⟩
  | .hbm, ⟨4, _⟩ => ⟨S1x1024, .f32⟩
  | .hbm, ⟨5, _⟩ => ⟨S262144x3, .f32⟩
  | .local _ .vmem, ⟨0, _⟩ => ⟨S2048x2, .i32⟩
  | .local _ .vmem, ⟨1, _⟩ => ⟨S2048x2, .i32⟩
  | .local _ .vmem, ⟨2, _⟩ => ⟨S1024x2, .i32⟩
  | .local _ .vmem, ⟨3, _⟩ => ⟨S3x1024, .f32⟩
  | .local _ .vmem, ⟨4, _⟩ => ⟨S1x1024, .f32⟩
  | .local _ .vmem, ⟨5, _⟩ => ⟨S2048x3, .f32⟩
  | .local _ .vmem, ⟨6, _⟩ => ⟨S2048x3, .f32⟩
  | _, _ => ⟨S262144x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024_S1x1024 : S1024.ShapeCasts S1x1024
  inb_S2048x2_S2048x2_0_0 : ∀ a, (![0, 0] : Fin 2 → Nat) a + S2048x2.size a ≤ S2048x2.size a
  h_S2048x2 : 0 < S2048x2.numel
  inb_S1024x2_S1024x2_0_0 : ∀ a, (![0, 0] : Fin 2 → Nat) a + S1024x2.size a ≤ S1024x2.size a
  h_S1024x2 : 0 < S1024x2.numel
  reduces_S2048x2_S2048 : S2048x2.Reduces [1] S2048
  shapeCasts_S2048_S2048x1 : S2048.ShapeCasts S2048x1
  reduces_S1024x2_S1024 : S1024x2.Reduces [1] S1024
  transposes_S1024x2_p1_0_S2x1024 : S1024x2.Transposes [1, 0] S2x1024
  broadcasts_S2048x1_S2048x1024 : S2048x1.Broadcasts S2048x1024
  broadcasts_S1x1024_S2048x1024 : S1x1024.Broadcasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S3x1024_S3x1024_0_0 : ∀ a, (![0, 0] : Fin 2 → Nat) a + S3x1024.size a ≤ S3x1024.size a
  h_S3x1024 : 0 < S3x1024.numel
  transposes_S3x1024_p1_0_S1024x3 : S3x1024.Transposes [1, 0] S1024x3
  reduces_S2048x1024_S2048 : S2048x1024.Reduces [1] S2048
  broadcasts_S2048x1_S2048x3 : S2048x1.Broadcasts S2048x3
  inb_S2048x3_S2048x3_0_0 : ∀ a, (![0, 0] : Fin 2 → Nat) a + S2048x3.size a ≤ S2048x3.size a
  h_S2048x3 : 0 < S2048x3.numel
  dot_S2048x2_S2x1024_S2048x1024_1_0_0_1_n_n_wf : DotDims.WF S2048x2 S2x1024 S2048x1024 [1] [0] [0] [1] [] []
  dot_S2048x1024_S1024x3_S2048x3_1_0_0_1_n_n_wf : DotDims.WF S2048x1024 S1024x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2.size a ≤ S262144x2.size a
  hwx0_0 : ∀ i : grid0.Coords, EltTy.bits .i32 = 32 ∨ (Rect.block (s := S262144x2) S2048x2.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2.size a ≤ S1024x2.size a
  hwx0_1 : ∀ i : grid0.Coords, EltTy.bits .i32 = 32 ∨ (Rect.block (s := S1024x2) S1024x2.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1024.size a ≤ S3x1024.size a
  hwx0_2 : ∀ i : grid0.Coords, EltTy.bits .f32 = 32 ∨ (Rect.block (s := S3x1024) S3x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x3.size a ≤ S262144x3.size a
  hwx0_4 : ∀ i : grid0.Coords, EltTy.bits .f32 = 32 ∨ (Rect.block (s := S262144x3) S2048x3.size (cc0_transform_4 i) (hinb0_4 i)).WholeWords (EltTy.packing .f32)

variable [Facts₀]

def dot_S2048x2_S2x1024_S2048x1024_1_0_0_1_n_n : DotDims S2048x2 S2x1024 S2048x1024 where
  lhsContracting := [1]
  rhsContracting := [0]
  lhsNonContracting := [0]
  rhsNonContracting := [1]
  lhsBatch := []
  rhsBatch := []
  wf := dot_S2048x2_S2x1024_S2048x1024_1_0_0_1_n_n_wf
def dot_S2048x1024_S1024x3_S2048x3_1_0_0_1_n_n : DotDims S2048x1024 S1024x3 S2048x3 where
  lhsContracting := [1]
  rhsContracting := [0]
  lhsNonContracting := [0]
  rhsNonContracting := [1]
  lhsBatch := []
  rhsBatch := []
  wf := dot_S2048x1024_S1024x3_S2048x3_1_0_0_1_n_n_wf

abbrev win0_0 : Pipeline.Window sig grid0 :=
  Pipeline.Window.ofSpec (Memref.whole main_arg0) S2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x3.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x2 : Shape := ⟨2, ![262144, 2]⟩
abbrev S1024x2 : Shape := ⟨2, ![1024, 2]⟩
abbrev S3x1024 : Shape := ⟨2, ![3, 1024]⟩
abbrev S1024 : Shape := ⟨1, ![1024]⟩
abbrev S_ : Shape := ⟨0, ![]⟩
abbrev S262144 : Shape := ⟨1, ![262144]⟩
abbrev S262144x1 : Shape := ⟨2, ![262144, 1]⟩
abbrev S2x1024 : Shape := ⟨2, ![2, 1024]⟩
abbrev S262144x1024 : Shape := ⟨2, ![262144, 1024]⟩
abbrev S1x1024 : Shape := ⟨2, ![1, 1024]⟩
abbrev S1024x3 : Shape := ⟨2, ![1024, 3]⟩
abbrev S262144x3 : Shape := ⟨2, ![262144, 3]⟩

abbrev nBuf : Space → Nat
  | .hbm => 38
  | .vmem => 0
  | .smem => 0
  | _ => 0

abbrev bufTy : (tb : Table) → Fin (tcTables nBuf tb) → BufTy
  | .hbm, ⟨0, _⟩ => ⟨S262144x2, .i32⟩
  | .hbm, ⟨1, _⟩ => ⟨S1024x2, .i32⟩
  | .hbm, ⟨2, _⟩ => ⟨S3x1024, .f32⟩
  | .hbm, ⟨3, _⟩ => ⟨S1024, .f32⟩
  | .hbm, ⟨4, _⟩ => ⟨S262144x2, .f32⟩
  | .hbm, ⟨5, _⟩ => ⟨S1024x2, .f32⟩
  | .hbm, ⟨6, _⟩ => ⟨S262144x2, .f32⟩
  | .hbm, ⟨7, _⟩ => ⟨S_, .f32⟩
  | .hbm, ⟨8, _⟩ => ⟨S262144, .f32⟩
  | .hbm, ⟨9, _⟩ => ⟨S262144x1, .f32⟩
  | .hbm, ⟨10, _⟩ => ⟨S2x1024, .f32⟩
  | .hbm, ⟨11, _⟩ => ⟨S262144x1024, .f32⟩
  | .hbm, ⟨12, _⟩ => ⟨S_, .f32⟩
  | .hbm, ⟨13, _⟩ => ⟨S262144x1024, .f32⟩
  | .hbm, ⟨14, _⟩ => ⟨S262144x1024, .f32⟩
  | .hbm, ⟨15, _⟩ => ⟨S262144x1024, .f32⟩
  | .hbm, ⟨16, _⟩ => ⟨S262144x1024, .f32⟩
  | .hbm, ⟨17, _⟩ => ⟨S1024x2, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S262144x1024, .f32⟩
  | .hbm, ⟨22, _⟩ => ⟨S262144x1024, .f32⟩
  | .hbm, ⟨23, _⟩ => ⟨S262144x1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S262144x1024, .f32⟩
  | .hbm, ⟨29, _⟩ => ⟨S262144x1024, .f32⟩
  | .hbm, ⟨30, _⟩ => ⟨S262144x1024, .f32⟩
  | .hbm, ⟨31, _⟩ => ⟨S1024x3, .f32⟩
  | .hbm, ⟨32, _⟩ => ⟨S262144x3, .f32⟩
  | .hbm, ⟨33, _⟩ => ⟨S_, .f32⟩
  | .hbm, ⟨34, _⟩ => ⟨S262144, .f32⟩
  | .hbm, ⟨35, _⟩ => ⟨S262144x1, .f32⟩
  | .hbm, ⟨36, _⟩ => ⟨S262144x3, .f32⟩
  | .hbm, ⟨37, _⟩ => ⟨S262144x3, .f32⟩
  | _, _ => ⟨S262144x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  reducesTo_S262144x2_S262144_d1 : S262144x2.ReducesTo [1] S262144
  h_S_ : 0 < S_.numel
  bcast_S262144_S262144x1_0 : S262144.BroadcastsInDim S262144x1 (![0] : Fin 1 → Fin S262144x1.rank)
  transposes_S1024x2_S2x1024_1_0 : S1024x2.Transposes [1, 0] S2x1024
  bcast_S_S262144x1024 : S_.BroadcastsInDim S262144x1024 (![] : Fin 0 → Fin S262144x1024.rank)
  bcast_S262144x1_S262144x1024_0_1 : S262144x1.BroadcastsInDim S262144x1024 (![0, 1] : Fin 2 → Fin S262144x1024.rank)
  reducesTo_S1024x2_S1024_d1 : S1024x2.ReducesTo [1] S1024
  bcast_S1024_S1x1024_1 : S1024.BroadcastsInDim S1x1024 (![1] : Fin 1 → Fin S1x1024.rank)
  bcast_S1x1024_S262144x1024_0_1 : S1x1024.BroadcastsInDim S262144x1024 (![0, 1] : Fin 2 → Fin S262144x1024.rank)
  bcast_S_S1024 : S_.BroadcastsInDim S1024 (![] : Fin 0 → Fin S1024.rank)
  transposes_S3x1024_S1024x3_1_0 : S3x1024.Transposes [1, 0] S1024x3
  reducesTo_S262144x1024_S262144_d1 : S262144x1024.ReducesTo [1] S262144
  bcast_S262144x1_S262144x3_0_1 : S262144x1.BroadcastsInDim S262144x3 (![0, 1] : Fin 2 → Fin S262144x3.rank)
  dot_S262144x2_S2x1024_S262144x1024_1_0_0_1_n_n_wf : DotDims.WF S262144x2 S2x1024 S262144x1024 [1] [0] [0] [1] [] []
  dot_S262144x1024_S1024x3_S262144x3_1_0_0_1_n_n_wf : DotDims.WF S262144x1024 S1024x3 S262144x3 [1] [0] [0] [1] [] []

variable [Facts₀]

def dot_S262144x2_S2x1024_S262144x1024_1_0_0_1_n_n : DotDims S262144x2 S2x1024 S262144x1024 where
  lhsContracting := [1]
  rhsContracting := [0]
  lhsNonContracting := [0]
  rhsNonContracting := [1]
  lhsBatch := []
  rhsBatch := []
  wf := dot_S262144x2_S2x1024_S262144x1024_1_0_0_1_n_n_wf
def dot_S262144x1024_S1024x3_S262144x3_1_0_0_1_n_n : DotDims S262144x1024 S1024x3 S262144x3 where
  lhsContracting := [1]
  rhsContracting := [0]
  lhsNonContracting := [0]
  rhsNonContracting := [1]
  lhsBatch := []
  rhsBatch := []
  wf := dot_S262144x1024_S1024x3_S262144x3_1_0_0_1_n_n_wf

class Facts : Prop extends Facts₀ where

variable [Facts]
-- ==== Proof.Spec.lean ====
/-
  Gaussian-kernel pooling of one query point of the plane, on the extended reals.

  For a query point `x`, nodes `p_k` with bandwidths `s_k` and node values `w_k` (k < M):
    D_k = (‖x‖² − 2·⟨x, p_k⟩) + ‖p_k‖²        the squared distance, by expansion, in this grouping,
    K_k = exp (−D_k / (2·s_k))                  the node's weight,
    pooled = (∑ k, K_k · w_k) / (∑ k, K_k)      the weighted mean.
  The quotients are the extended reals' (`Ideal.div`) and the exponential theirs (`Ideal.exp`); `2` is the binary32 word
  `0x40000000`, kept as a word: it is the same word wherever it occurs and is never evaluated. `pooledArray` applies this to
  every row of an integer coordinate table, each word read as the signed integer it denotes, against a table of nodes, one
  output column per row of node values.
-/
import Idealize.ShloMosaic.PureOps.Ideal
import Idealize.ShloMosaic.Lib.ValueIdx

noncomputable section

open scoped BigOperators

namespace Cert.RbfPool

open Idealize.ShloMosaic Idealize.ShloMosaic.ValueIdx

/-- The number two, as the binary32 word both programs write. -/
abbrev two : EReal := Ideal.ofBits .f32 0x40000000#32

/-- `‖x‖²`: the sum of the squared coordinates. -/
def sqNorm (x : Fin 2 → EReal) : EReal := ∑ d : Fin 2, x d * x d

/-- `⟨x, p⟩`. -/
def inner (x p : Fin 2 → EReal) : EReal := ∑ d : Fin 2, x d * p d

/-- The squared distance from `x` to `p` by expansion, grouped `(‖x‖² − 2⟨x, p⟩) + ‖p‖²`. -/
def sqDist (x p : Fin 2 → EReal) : EReal := sqNorm x - two * inner x p + sqNorm p

/-- The Gaussian weight of node `p` with bandwidth `s` at `x`: `exp (−D / (2 s))`. -/
def weight (x p : Fin 2 → EReal) (s : EReal) : EReal := Ideal.exp (Ideal.div (-(sqDist x p)) (two * s))

/-- The pooled value at `x`: the nodes' values averaged with their weights. -/
def pooled {M : ℕ} (x : Fin 2 → EReal) (P : Fin M → Fin 2 → EReal) (s w : Fin M → EReal) : EReal :=
  Ideal.div (∑ k : Fin M, weight x (P k) (s k) * w k) (∑ k : Fin M, weight x (P k) (s k))

/-- Row `n` of an integer coordinate table as a point of the plane: each word read as the signed integer it denotes. -/
def point {N : ℕ} (X : (⟨2, ![N, 2]⟩ : Shape).Idx → BitVec 32) (n : Fin N) : Fin 2 → EReal :=
  fun d => FloatOps.sitofp (F := Ideal) .f32 (X (ix2 n d))

/-- The pooled array: entry `(n, c)` pools row `c` of the node values `W` at query point `n`. -/
def pooledArray (X : (⟨2, ![262144, 2]⟩ : Shape).Idx → BitVec 32) (P : (⟨2, ![1024, 2]⟩ : Shape).Idx → BitVec 32)
    (W : (⟨2, ![3, 1024]⟩ : Shape).Idx → EReal) (s : (⟨1, ![1024]⟩ : Shape).Idx → EReal) :
    (⟨2, ![262144, 3]⟩ : Shape).Idx → EReal :=
  fun i => pooled (point X (i 0)) (point P) (fun k => s (ix1 k)) (fun k => W (ix2 (i 1) k))

/-- The pooled array at `(n, c)`, by coordinates. -/
theorem pooledArray_apply (X : (⟨2, ![262144, 2]⟩ : Shape).Idx → BitVec 32) (P : (⟨2, ![1024, 2]⟩ : Shape).Idx → BitVec 32)
    (W : (⟨2, ![3, 1024]⟩ : Shape).Idx → EReal) (s : (⟨1, ![1024]⟩ : Shape).Idx → EReal) (n : Fin 262144) (c : Fin 3) :
    pooledArray X P W s (ix2 n c) = pooled (point X n) (point P) (fun k => s (ix1 k)) (fun k => W (ix2 c k)) := rfl

end Cert.RbfPool

end
-- ==== Proof.LibKeepdims.lean ====
/-
  A row reduction kept as a column, read at an index by coordinates.

  `jnp.sum(x, axis=1, keepdims=True)` of an `[a, b]` array is three steps on the vector unit: a lane sum into `[a]`, a
  reshape of that vector to the column `[a, 1]`, and (where the column meets an `[a, b]` operand) its broadcast along
  the second axis. Read at `(p, c)` the three steps together are `∑ k, x (p, k)`, whatever `c`:
  `shapeCast_a_a1_apply` (the column at `(i, u)` is the vector at `i`), `broadcastTo_a1_ab_apply` (the broadcast at
  `(p, c)` is the column at `(p, 0)`) and `rowSum_f32` (an f32 lane sum over the second axis of a matrix, from the zero
  word, is the sum over `k` of the row's entries on the extended reals).
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- An `[a]` vector reshaped to the column `[a, 1]` reads, at `(i, u)`, the vector at `i`: both sit at row-major
    position `i`, the unit coordinate contributing nothing. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the second axis of an `[a, b]` matrix, started from the zero word (the sum's neutral element),
    is at row `r` the sum of that row's entries on the extended reals: the reduced index with the coordinate `k` put back
    on axis 1 is `(r, k)`. -/
theorem rowSum_f32 {a b : ℕ} (v : FVec Ideal ⟨2, ![a, b]⟩ .f32) (h : (⟨2, ![a, b]⟩ : Shape).Reduces [1] ⟨1, ![a]⟩) (r : Fin a) :
    multiReduction .add [1] ⟨1, ![a]⟩ v 0x00000000#32 h (.inl rfl) rfl (ix1 r) = ∑ k : Fin b, v (ix2 r k) := by
  refine (Ideal.multiReduction_add_single v 0x00000000#32 h (.inl rfl) rfl (ix1 r)).trans ?_
  refine Finset.sum_congr rfl fun k _ => congrArg v (funext fun c => Fin.ext ?_)
  match c with
  | ⟨0, _⟩ => rfl
  | ⟨1, _⟩ => rfl

end Cert.Lib.Keepdims

end
-- ==== Proof.KernelPayload.lean ====
/-
  What the kernel body stores, read at `(r, c)`: the pooled value at the block's query row `r` of row `c` of the node values.

  The body works on one block of 2048 query rows against all 1024 nodes. Its table of weights at `(r, k)` is
  `exp ((0 − ((Sx r − 2·cross (r, k)) + Sp k)) / (2·σ (0, k)))`, where `Sx r = ∑ d, x (r, d)²` and `Sp k = ∑ d, p (k, d)²` are lane sums
  kept as a column and as a row, and `cross (r, k) = ∑ d, x (r, d) · p (k, d)` is a product on the matrix unit into a zero
  accumulator with the nodes transposed; the stored value is `(∑ k, K (r, k) · w (c, k)) / (∑ k, K (r, k))`, a second product into a
  zero accumulator (node values transposed) over a second lane sum. On the extended reals `0 − D = −D`, so this is the
  specification's `pooled`.
-/
import proofs.«122626_j60172491817331_1_alg».proof.Proof.Gen.KernelIdeal.Skeleton
import proofs.«122626_j60172491817331_1_alg».proof.Proof.Spec
import proofs.«122626_j60172491817331_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pooling

open Cert.KernelIdeal Cert.KernelIdeal.Gen Cert.RbfPool Cert.Lib.Keepdims
open Idealize.ShloMosaic Idealize.ShloMosaic.ValueIdx

/-! ## The two products on the matrix unit, read at an index -/

theorem cross_lhs_0 (i : S2048x1024.Idx) (q : dot_S2048x2_S2x1024_S2048x1024_1_0_0_1_n_n.contr.Idx) :
    (dot_S2048x2_S2x1024_S2048x1024_1_0_0_1_n_n.lhsIdx i q 0).val = (i 0).val := by
  unfold DotDims.lhsIdx
  rw [dif_neg (show ¬(0 : Fin S2048x2.rank) ∈ dot_S2048x2_S2x1024_S2048x1024_1_0_0_1_n_n.lhsBatch by decide), dif_pos (show (0 : Fin S2048x2.rank) ∈ dot_S2048x2_S2x1024_S2048x1024_1_0_0_1_n_n.lhsNonContracting by decide)]
  rfl
theorem cross_lhs_1 (i : S2048x1024.Idx) (q : dot_S2048x2_S2x1024_S2048x1024_1_0_0_1_n_n.contr.Idx) :
    (dot_S2048x2_S2x1024_S2048x1024_1_0_0_1_n_n.lhsIdx i q 1).val = (q ⟨0, by decide⟩).val :=
  dot_S2048x2_S2x1024_S2048x1024_1_0_0_1_n_n.lhsIdx_val_of_single rfl i q
theorem cross_rhs_0 (i : S2048x1024.Idx) (q : dot_S2048x2_S2x1024_S2048x1024_1_0_0_1_n_n.contr.Idx) :
    (dot_S2048x2_S2x1024_S2048x1024_1_0_0_1_n_n.rhsIdx i q 0).val = (q ⟨0, by decide⟩).val :=
  dot_S2048x2_S2x1024_S2048x1024_1_0_0_1_n_n.rhsIdx_val_of_single rfl i q
theorem cross_rhs_1 (i : S2048x1024.Idx) (q : dot_S2048x2_S2x1024_S2048x1024_1_0_0_1_n_n.contr.Idx) :
    (dot_S2048x2_S2x1024_S2048x1024_1_0_0_1_n_n.rhsIdx i q 1).val = (i 1).val := by
  unfold DotDims.rhsIdx
  rw [dif_neg (show ¬(1 : Fin S2x1024.rank) ∈ dot_S2048x2_S2x1024_S2048x1024_1_0_0_1_n_n.rhsBatch by decide), dif_pos (show (1 : Fin S2x1024.rank) ∈ dot_S2048x2_S2x1024_S2048x1024_1_0_0_1_n_n.rhsNonContracting by decide)]
  rfl

/-- The [2048, 2] × [2, 1024] product into a zero accumulator, at `(r, k)`: the sum over the two coordinates. -/
theorem cross_apply (l : FVec Ideal S2048x2 .f32) (rr : FVec Ideal S2x1024 .f32) (r : Fin 2048) (k : Fin 1024) :
    matmul dot_S2048x2_S2x1024_S2048x1024_1_0_0_1_n_n none l rr (constant (F := Ideal) S2048x1024 .f32 0x00000000#32) (ix2 r k)
      = ∑ d : Fin 2, l (ix2 r d) * rr (ix2 d k) := by
  refine (Ideal.matmul_constant_zero_apply dot_S2048x2_S2x1024_S2048x1024_1_0_0_1_n_n none l rr (ix2 r k)).trans ?_
  rw [← Equiv.sum_comp (contrEquiv1 dot_S2048x2_S2x1024_S2048x1024_1_0_0_1_n_n 2 rfl rfl).symm]
  refine Finset.sum_congr rfl fun d _ => ?_
  have hd := contrEquiv1_symm_val dot_S2048x2_S2x1024_S2048x1024_1_0_0_1_n_n 2 rfl rfl d
  have el : dot_S2048x2_S2x1024_S2048x1024_1_0_0_1_n_n.lhsIdx (ix2 r k) ((contrEquiv1 dot_S2048x2_S2x1024_S2048x1024_1_0_0_1_n_n 2 rfl rfl).symm d) = ix2 r d := funext fun a => Fin.ext (by
    match a with
    | ⟨0, _⟩ => exact cross_lhs_0 _ _
    | ⟨1, _⟩ => exact (cross_lhs_1 _ _).trans hd)
  have er : dot_S2048x2_S2x1024_S2048x1024_1_0_0_1_n_n.rhsIdx (ix2 r k) ((contrEquiv1 dot_S2048x2_S2x1024_S2048x1024_1_0_0_1_n_n 2 rfl rfl).symm d) = ix2 d k := funext fun a => Fin.ext (by
    match a with
    | ⟨0, _⟩ => exact (cross_rhs_0 _ _).trans hd
    | ⟨1, _⟩ => exact cross_rhs_1 _ _)
  rw [el, er]

theorem num_lhs_0 (i : S2048x3.Idx) (q : dot_S2048x1024_S1024x3_S2048x3_1_0_0_1_n_n.contr.Idx) :
    (dot_S2048x1024_S1024x3_S2048x3_1_0_0_1_n_n.lhsIdx i q 0).val = (i 0).val := by
  unfold DotDims.lhsIdx
  rw [dif_neg (show ¬(0 : Fin S2048x1024.rank) ∈ dot_S2048x1024_S1024x3_S2048x3_1_0_0_1_n_n.lhsBatch by decide), dif_pos (show (0 : Fin S2048x1024.rank) ∈ dot_S2048x1024_S1024x3_S2048x3_1_0_0_1_n_n.lhsNonContracting by decide)]
  rfl
theorem num_lhs_1 (i : S2048x3.Idx) (q : dot_S2048x1024_S1024x3_S2048x3_1_0_0_1_n_n.contr.Idx) :
    (dot_S2048x1024_S1024x3_S2048x3_1_0_0_1_n_n.lhsIdx i q 1).val = (q ⟨0, by decide⟩).val :=
  dot_S2048x1024_S1024x3_S2048x3_1_0_0_1_n_n.lhsIdx_val_of_single rfl i q
theorem num_rhs_0 (i : S2048x3.Idx) (q : dot_S2048x1024_S1024x3_S2048x3_1_0_0_1_n_n.contr.Idx) :
    (dot_S2048x1024_S1024x3_S2048x3_1_0_0_1_n_n.rhsIdx i q 0).val = (q ⟨0, by decide⟩).val :=
  dot_S2048x1024_S1024x3_S2048x3_1_0_0_1_n_n.rhsIdx_val_of_single rfl i q
theorem num_rhs_1 (i : S2048x3.Idx) (q : dot_S2048x1024_S1024x3_S2048x3_1_0_0_1_n_n.contr.Idx) :
    (dot_S2048x1024_S1024x3_S2048x3_1_0_0_1_n_n.rhsIdx i q 1).val = (i 1).val := by
  unfold DotDims.rhsIdx
  rw [dif_neg (show ¬(1 : Fin S1024x3.rank) ∈ dot_S2048x1024_S1024x3_S2048x3_1_0_0_1_n_n.rhsBatch by decide), dif_pos (show (1 : Fin S1024x3.rank) ∈ dot_S2048x1024_S1024x3_S2048x3_1_0_0_1_n_n.rhsNonContracting by decide)]
  rfl

/-- The [2048, 1024] × [1024, 3] product into a zero accumulator, at `(r, c)`: the sum over the 1024 nodes. -/
theorem num_apply (l : FVec Ideal S2048x1024 .f32) (rr : FVec Ideal S1024x3 .f32) (r : Fin 2048) (c : Fin 3) :
    matmul dot_S2048x1024_S1024x3_S2048x3_1_0_0_1_n_n none l rr (constant (F := Ideal) S2048x3 .f32 0x00000000#32) (ix2 r c)
      = ∑ k : Fin 1024, l (ix2 r k) * rr (ix2 k c) := by
  refine (Ideal.matmul_constant_zero_apply dot_S2048x1024_S1024x3_S2048x3_1_0_0_1_n_n none l rr (ix2 r c)).trans ?_
  rw [← Equiv.sum_comp (contrEquiv1 dot_S2048x1024_S1024x3_S2048x3_1_0_0_1_n_n 1024 rfl rfl).symm]
  refine Finset.sum_congr rfl fun k _ => ?_
  have hk := contrEquiv1_symm_val dot_S2048x1024_S1024x3_S2048x3_1_0_0_1_n_n 1024 rfl rfl k
  have el : dot_S2048x1024_S1024x3_S2048x3_1_0_0_1_n_n.lhsIdx (ix2 r c) ((contrEquiv1 dot_S2048x1024_S1024x3_S2048x3_1_0_0_1_n_n 1024 rfl rfl).symm k) = ix2 r k := funext fun a => Fin.ext (by
    match a with
    | ⟨0, _⟩ => exact num_lhs_0 _ _
    | ⟨1, _⟩ => exact (num_lhs_1 _ _).trans hk)
  have er : dot_S2048x1024_S1024x3_S2048x3_1_0_0_1_n_n.rhsIdx (ix2 r c) ((contrEquiv1 dot_S2048x1024_S1024x3_S2048x3_1_0_0_1_n_n 1024 rfl rfl).symm k) = ix2 k c := funext fun a => Fin.ext (by
    match a with
    | ⟨0, _⟩ => exact (num_rhs_0 _ _).trans hk
    | ⟨1, _⟩ => exact num_rhs_1 _ _)
  rw [el, er]

/-! ## The table of weights -/

/-- The body's [2048, 1024] table of weights, from a block of query rows, the node table and the bandwidth row: its
    operations up to the exponential, as the body writes them. -/
def weights (x0 : Vec Ideal S2048x2 .i32) (x1 : Vec Ideal S1024x2 .i32) (x3 : FVec Ideal S1x1024 .f32) : FVec Ideal S2048x1024 .f32 :=
  have v1 : FVec Ideal S2048x2 .f32 := sitofp .f32 x0
  have v3 : FVec Ideal S1024x2 .f32 := sitofp .f32 x1
  have v4 : FVec Ideal S2048x2 .f32 := mulf v1 v1
  have v5 : FVec Ideal S2048 .f32 := multiReduction .add [1] S2048 v4 0x00000000#32 reduces_S2048x2_S2048 (.inl rfl) rfl
  have v6 : FVec Ideal S2048x1 .f32 := shapeCast S2048x1 v5 shapeCasts_S2048_S2048x1
  have v7 : FVec Ideal S1024x2 .f32 := mulf v3 v3
  have v8 : FVec Ideal S1024 .f32 := multiReduction .add [1] S1024 v7 0x00000000#32 reduces_S1024x2_S1024 (.inl rfl) rfl
  have v9 : FVec Ideal S1x1024 .f32 := shapeCast S1x1024 v8 shapeCasts_S1024_S1x1024
  have v10 : FVec Ideal S2x1024 .f32 := transpose S2x1024 [1, 0] v3 transposes_S1024x2_p1_0_S2x1024
  have cst_4 : FVec Ideal S2048x1024 .f32 := constant S2048x1024 .f32 0x00000000#32
  have v11 : FVec Ideal S2048x1024 .f32 := matmul dot_S2048x2_S2x1024_S2048x1024_1_0_0_1_n_n none v1 v10 cst_4
  have cst_5 : Ideal .f32 := Scalar.ofBits .f32 0x40000000#32
  have v12 : FVec Ideal S2048x1024 .f32 := broadcast S2048x1024 cst_5
  have v13 : FVec Ideal S2048x1024 .f32 := mulf v12 v11
  have v14 : FVec Ideal S2048x1024 .f32 := broadcastTo S2048x1024 v6 broadcasts_S2048x1_S2048x1024
  have v15 : FVec Ideal S2048x1024 .f32 := subf v14 v13
  have v16 : FVec Ideal S2048x1024 .f32 := broadcastTo S2048x1024 v9 broadcasts_S1x1024_S2048x1024
  have v17 : FVec Ideal S2048x1024 .f32 := addf v15 v16
  have v19 : FVec Ideal S1x1024 .f32 := shapeCast S1x1024 x3 shapeCasts_S1x1024_S1x1024
  have cst_8 : Ideal .f32 := Scalar.ofBits .f32 0x00000000#32
  have v20 : FVec Ideal S2048x1024 .f32 := broadcast S2048x1024 cst_8
  have v21 : FVec Ideal S2048x1024 .f32 := subf v20 v17
  have cst_9 : Ideal .f32 := Scalar.ofBits .f32 0x40000000#32
  have v22 : FVec Ideal S1x1024 .f32 := broadcast S1x1024 cst_9
  have v23 : FVec Ideal S1x1024 .f32 := mulf v22 v19
  have v24 : FVec Ideal S2048x1024 .f32 := broadcastTo S2048x1024 v23 broadcasts_S1x1024_S2048x1024
  have v25 : FVec Ideal S2048x1024 .f32 := divf v21 v24
  exp v25

/-- The stored value is the quotient of the product of the weights with the transposed node values by the weights' row sums
    kept as a column: the body's last five operations over `weights`. -/
theorem pay_eq (x0 : Vec Ideal S2048x2 .i32) (x1 : Vec Ideal S1024x2 .i32) (x3 : FVec Ideal S1x1024 .f32) (x2 : FVec Ideal S3x1024 .f32) :
    k0_pay1 (F := Ideal) x0 x1 x3 x2
      = divf (matmul dot_S2048x1024_S1024x3_S2048x3_1_0_0_1_n_n none (weights x0 x1 x3) (transpose S1024x3 [1, 0] x2 transposes_S3x1024_p1_0_S1024x3)
            (constant (F := Ideal) S2048x3 .f32 0x00000000#32))
          (broadcastTo S2048x3 (shapeCast S2048x1 (multiReduction .add [1] S2048 (weights x0 x1 x3) 0x00000000#32 reduces_S2048x1024_S2048 (.inl rfl) rfl)
            shapeCasts_S2048_S2048x1) broadcasts_S2048x1_S2048x3) := rfl

theorem exp_apply {s : Shape} (v : FVec Ideal s .f32) (i : s.Idx) : exp v i = Ideal.exp (v i) := rfl

/-- The table of weights at `(r, k)` is the Gaussian weight of node `k` at the block's query row `r`. -/
theorem weights_apply (x0 : Vec Ideal S2048x2 .i32) (x1 : Vec Ideal S1024x2 .i32) (x3 : FVec Ideal S1x1024 .f32) (r : Fin 2048) (k : Fin 1024) :
    weights x0 x1 x3 (ix2 r k) = weight (point x0 r) (point x1 k) (x3 (ix2 (0 : Fin 1) k)) := by
  have hT : ∀ d : Fin 2, transpose S2x1024 [1, 0] (sitofp (F := Ideal) .f32 x1) transposes_S1024x2_p1_0_S2x1024 (ix2 d k)
      = sitofp (F := Ideal) .f32 x1 (ix2 k d) := fun d => transpose_ix2_apply _ _ d k
  unfold weights
  simp only [exp_apply, divf_apply, subf_apply, addf_apply, mulf_apply, broadcast_apply]
  rw [broadcastTo_a1_ab_apply, shapeCast_a_a1_apply, rowSum_f32, cross_apply,
    broadcastTo_1b_ab_apply, shapeCast_a_1a_apply, rowSum_f32, broadcastTo_1b_ab_apply]
  simp only [mulf_apply, broadcast_apply, shapeCast_self, hT, sitofp_apply]
  show Ideal.exp (Ideal.div (Ideal.ofBits .f32 0x00000000#32 - _) _) = _
  rw [Ideal.ofBits_zero_f32, zero_sub]
  rfl

/-- THE PAYLOAD AT `(r, c)`: the pooled value, at the block's query row `r`, of row `c` of the node values. -/
theorem pay_apply (x0 : Vec Ideal S2048x2 .i32) (x1 : Vec Ideal S1024x2 .i32) (x3 : FVec Ideal S1x1024 .f32) (x2 : FVec Ideal S3x1024 .f32)
    (r : Fin 2048) (c : Fin 3) :
    k0_pay1 (F := Ideal) x0 x1 x3 x2 (ix2 r c)
      = pooled (point x0 r) (point x1) (fun k => x3 (ix2 (0 : Fin 1) k)) (fun k => x2 (ix2 c k)) := by
  have hT : ∀ k : Fin 1024, transpose S1024x3 [1, 0] x2 transposes_S3x1024_p1_0_S1024x3 (ix2 k c) = x2 (ix2 c k) :=
    fun k => transpose_ix2_apply _ _ k c
  rw [pay_eq, divf_apply, num_apply, broadcastTo_a1_ab_apply, shapeCast_a_a1_apply, rowSum_f32]
  simp only [weights_apply, hT]
  rfl

end Cert.KernelIdeal.Pooling

end
-- ==== Proof.KernelArray.lean ====
/-
  The kernel's result array is the pooled array.

  The grid has 128 points; point `t` stages rows `2048 t … 2048 t + 2047` of the query table, the whole node table, the whole
  table of node values and the whole bandwidth row (the bandwidth vector reshaped to one row before the region), and writes
  back rows `2048 t … 2048 t + 2047` of the result. Entry `(r, c)` of what point `t` writes is the pooled value at query row
  `2048 t + r` (the payload at `(r, c)` over the staged blocks), which is entry `(2048 t + r, c)` of the pooled array: the
  pooled value of a row depends on no other row. Every row `n` of the result lies in the block of point `n / 2048`, so the
  128 blocks cover the array and the array after the run is the pooled array.
-/
import proofs.«122626_j60172491817331_1_alg».proof.Proof.Gen.KernelIdeal.Value
import proofs.«122626_j60172491817331_1_alg».proof.Proof.KernelPayload
import Idealize.ShloMosaic.Lib.Pipeline.Value
import Idealize.ShloMosaic.Lib.StableHlo.Run
import Idealize.ShloMosaic.Lib.ValueLayout

noncomputable section

open scoped BigOperators

namespace Cert.KernelIdeal.Pooling

open Cert.KernelIdeal Cert.KernelIdeal.Gen Cert.KernelIdeal.Value Cert.RbfPool
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps, decided over the 128 points: the query table's and the result's blocks move with the point along the
    rows; the node table, the node values and the bandwidth row are each one block, staged whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The staged blocks, read off the argument arrays -/

/-- The query block at point `t`, at `(r, d)`, is the query table at `(2048 t + r, d)`. -/
theorem queryBlock_apply (c : Dev nD) (t : Fin cfg0.N) (r : Fin 2048) (d : Fin 2) (n : Fin 262144)
    (hn : n.val = 2048 * t.val + r.val) :
    (iblk m c 0 t : Vec Ideal S2048x2 .i32) (ix2 r d) = (m ((c : Thread nD τ).loc main_arg0) : S262144x2.Idx → BitVec 32) (ix2 n d) := by
  obtain ⟨h0, h1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 2048 + 1 * r.val = n.val; rw [h0, hn]; omega
  | ⟨1, _⟩ => show win0_0.index t (1 : Fin 2) * 2 + 1 * d.val = d.val; rw [h1]; omega

/-- The node block at every point is the node table. -/
theorem nodeBlock_eq (c : Dev nD) (t : Fin cfg0.N) :
    (iblk m c 1 t : Vec Ideal S1024x2 .i32) = (m ((c : Thread nD τ).loc main_arg1) : S1024x2.Idx → BitVec 32) := by
  obtain ⟨-, -, h0, h1, -⟩ := idx_facts t
  funext y
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 1024 + 1 * (y 0).val = (y 0).val; rw [h0]; omega
  | ⟨1, _⟩ => show win0_1.index t (1 : Fin 2) * 2 + 1 * (y 1).val = (y 1).val; rw [h1]; omega

/-- The block of node values at every point is the table of node values. -/
theorem valueBlock_eq (c : Dev nD) (t : Fin cfg0.N) :
    (iblk m c 2 t : FVec Ideal S3x1024 .f32) = (m ((c : Thread nD τ).loc main_arg2) : S3x1024.Idx → EReal) := by
  obtain ⟨-, -, -, -, h0, h1, -⟩ := idx_facts t
  funext y
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 2) * 3 + 1 * (y 0).val = (y 0).val; rw [h0]; omega
  | ⟨1, _⟩ => show win0_2.index t (1 : Fin 2) * 1024 + 1 * (y 1).val = (y 1).val; rw [h1]; omega

/-- The bandwidth row the region finds: the bandwidth vector reshaped to one row by the one host operation before it. -/
theorem bandwidthRow_eq (c : Dev nD) :
    (V m c main_v0 : S1x1024.Idx → EReal)
      = shapeCast S1x1024 (m ((c : Thread nD τ).loc main_arg3) : S1024.Idx → EReal) shapeCasts_S1024_S1x1024 := by
  dsimp only [Gen.V, Gen.hostOps0]; after_results; rfl

/-- The bandwidth block at every point, at `(0, k)`, is the bandwidth vector at `k`. -/
theorem bandwidthBlock_apply (c : Dev nD) (t : Fin cfg0.N) (k : Fin 1024) :
    (iblk m c 3 t : FVec Ideal S1x1024 .f32) (ix2 (0 : Fin 1) k) = (m ((c : Thread nD τ).loc main_arg3) : S1024.Idx → EReal) (ix1 k) := by
  obtain ⟨-, -, -, -, -, -, h0, h1, -⟩ := idx_facts t
  unfold iblk
  rw [View.read_apply]
  show (V m c main_v0 : S1x1024.Idx → EReal) _ = _
  rw [bandwidthRow_eq]
  refine (congrArg (shapeCast S1x1024 (m ((c : Thread nD τ).loc main_arg3) : S1024.Idx → EReal) shapeCasts_S1024_S1x1024)
    (show _ = ix2 (0 : Fin 1) k from funext fun a => Fin.ext ?_)).trans (shapeCast_a_1a_apply _ _ 0 k)
  match a with
  | ⟨0, _⟩ => show win0_3.index t (0 : Fin 2) * 1 + 1 * 0 = 0; rw [h0]
  | ⟨1, _⟩ => show win0_3.index t (1 : Fin 2) * 1024 + 1 * k.val = k.val; rw [h1]; omega

/-! ## What each point writes back -/

/-- The pooled array of the argument arrays as launched. -/
abbrev result (c : Dev nD) : S262144x3.Idx → EReal :=
  pooledArray (m ((c : Thread nD τ).loc main_arg0)) (m ((c : Thread nD τ).loc main_arg1)) (m ((c : Thread nD τ).loc main_arg2)) (m ((c : Thread nD τ).loc main_arg3))

/-- The pooled value depends on its four arguments only. -/
theorem pooled_congr {M : ℕ} {x x' : Fin 2 → EReal} {P P' : Fin M → Fin 2 → EReal} {s s' w w' : Fin M → EReal}
    (hx : x = x') (hP : P = P') (hs : s = s') (hw : w = w') : pooled x P s w = pooled x' P' s' w' := by
  rw [hx, hP, hs, hw]

/-- Entry `y` of what point `t` stores is the pooled array at the entry of row `2048 t + y 0` and column `y 1`. -/
theorem stored_apply (c : Dev nD) (t : Fin cfg0.N) (y : S2048x3.Idx) (i : S262144x3.Idx)
    (hi0 : (i 0).val = 2048 * t.val + (y 0).val) (hi1 : (i 1).val = (y 1).val) :
    k0_pay1 (F := Ideal) (iblk m c 0 t) (iblk m c 1 t) (iblk m c 3 t) (iblk m c 2 t) y = result m c i := by
  obtain ⟨r, cc, rfl⟩ : ∃ (r : Fin 2048) (cc : Fin 3), y = ix2 r cc := ⟨y 0, y 1, eq_ix2 y⟩
  obtain ⟨n, c', rfl⟩ : ∃ (n : Fin 262144) (c' : Fin 3), i = ix2 n c' := ⟨i 0, i 1, eq_ix2 i⟩
  have hn : n.val = 2048 * t.val + r.val := hi0
  obtain rfl : c' = cc := Fin.ext hi1
  refine (pay_apply _ _ _ _ r c').trans (Eq.trans ?_ (pooledArray_apply _ _ _ _ n c').symm)
  refine pooled_congr (funext fun d => ?_) ?_ (funext fun k => ?_) (funext fun k => ?_)
  · exact congrArg (FloatOps.sitofp (F := Ideal) .f32) (queryBlock_apply m c t r d n hn)
  · exact congrArg point (nodeBlock_eq m c t)
  · exact bandwidthBlock_apply m c t k
  · exact congrFun (valueBlock_eq m c t) (ix2 c' k)

/-- WHAT POINT `t` WRITES BACK is block `t` of the pooled array. -/
theorem flushed_eq (c : Dev nD) (t : Fin cfg0.N) :
    (dats m 0 c).flushed 4 t = ((cfg0.win 4).blk t).view.read (Elt Ideal) (result m c) := by
  obtain ⟨-, -, -, -, -, -, -, -, h0, h1⟩ := idx_facts t
  rw [flushed4]
  unfold out0_4
  rw [View.canon_unit_zero hz]
  simp only [View.ld_unit_zero (S := S2048x2) hz, View.ld_unit_zero (S := S1024x2) hz, View.ld_unit_zero (S := S1x1024) hz,
    View.ld_unit_zero (S := S3x1024) hz]
  funext y
  show k0_pay1 (F := Ideal) (iblk m c 0 t) (iblk m c 1 t) (iblk m c 3 t) (iblk m c 2 t) y
    = result m c (((cfg0.win 4).blk t).view.emb y)
  refine stored_apply m c t y _ ?_ ?_
  · show win0_4.index t (0 : Fin 2) * 2048 + 1 * (y 0).val = 2048 * t.val + (y 0).val; rw [h0]; omega
  · show win0_4.index t (1 : Fin 2) * 3 + 1 * (y 1).val = (y 1).val; rw [h1]; omega

/-! ## The blocks cover the array -/

/-- An index of the result is in point `t`'s block iff each coordinate is in the block's range on its axis. -/
theorem mem_blk (t : Fin cfg0.N) (i : S262144x3.Idx) :
    i ∈ ((cfg0.win 4).blk t).view.set ↔ ∀ a : Fin 2, win0_4.index t a * S2048x3.size a ≤ (i a).val ∧ (i a).val < win0_4.index t a * S2048x3.size a + S2048x3.size a := by
  show i ∈ ((View.whole main_v1).slice (win0_4.rect t)).set ↔ _
  rw [View.set_slice_whole, Rect.mem_set_unit]
  exact Iff.rfl

/-- Row `n` of the result lies in the block of point `n / 2048`, which writes back. -/
theorem cover (i : S262144x3.Idx) : ∃ t : Fin cfg0.N, (cfg0.win 4).flush t = true ∧ i ∈ ((cfg0.win 4).blk t).view.set := by
  have hN : cfg0.N = 128 := N_0
  have hi0 : (i 0).val < 262144 := (i 0).isLt
  have hi1 : (i 1).val < 3 := (i 1).isLt
  obtain ⟨t, ht⟩ : ∃ t : Fin cfg0.N, t.val = (i 0).val / 2048 := ⟨⟨(i 0).val / 2048, by rw [hN]; omega⟩, rfl⟩
  obtain ⟨-, -, -, -, -, -, -, -, h0, h1⟩ := idx_facts t
  refine ⟨t, flush0_4 t, ?_⟩
  rw [mem_blk]
  intro a
  match a with
  | ⟨0, _⟩ =>
    show win0_4.index t (0 : Fin 2) * 2048 ≤ (i 0).val ∧ (i 0).val < win0_4.index t (0 : Fin 2) * 2048 + 2048
    rw [h0, ht]; omega
  | ⟨1, _⟩ =>
    show win0_4.index t (1 : Fin 2) * 3 ≤ (i 1).val ∧ (i 1).val < win0_4.index t (1 : Fin 2) * 3 + 3
    rw [h1]; omega

/-- THE ARRAY after the run is the pooled array. -/
theorem final (c : Dev nD) : (dats m 0 c).arrAt 4 cfg0.N = result m c :=
  (dats m 0 c).arrAt_eq_of_cover 4 (result m c) (fun t _ => flushed_eq m c t) cover

/-! ## The run, read -/

/-- Every weakly fair execution of the kernel's program terminates with the result array at the pooled array of the
    arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Pooling

end
-- ==== Proof.RefValue.lean ====
/-
  The reference computes the pooled array.

  Its last stage, read at `(n, c)` one operation at a time, is the quotient of `∑ k, K (n, k) · W (c, k)` by
  `0 + ∑ k, K (n, k)`, where the table of weights `K` at `(n, k)` is `exp ((−((Sx n − 2·cross (n, k)) + Sp k)) / (2·σ k))` with
  `Sx n = 0 + ∑ d, X (n, d)²`, `Sp k = 0 + ∑ d, P (k, d)²` and `cross (n, k) = ∑ d, X (n, d) · P (k, d)`: the broadcasts and
  transposes only move indices, and the zero the host's sums start from is the zero of the extended reals.
-/
import proofs.«122626_j60172491817331_1_alg».proof.Proof.Gen.ReferenceIdeal.Read
import proofs.«122626_j60172491817331_1_alg».proof.Proof.Spec

noncomputable section

open scoped BigOperators

namespace Cert.ReferenceIdeal.Pooling

open Cert.ReferenceIdeal Cert.ReferenceIdeal.Read Cert.RbfPool
open Idealize.ShloMosaic Idealize.ShloMosaic.ValueIdx

variable (X : (⟨S262144x2, .i32⟩ : BufTy).Contents (Elt Ideal)) (P : (⟨S1024x2, .i32⟩ : BufTy).Contents (Elt Ideal))
variable (W : (⟨S3x1024, .f32⟩ : BufTy).Contents (Elt Ideal)) (σ : (⟨S1024, .f32⟩ : BufTy).Contents (Elt Ideal))

/-- The table of weights at `(n, k)` is the Gaussian weight of node `k` at query point `n`. -/
theorem weight_at (n : Fin 262144) (k : Fin 1024) :
    val_main_v22 (F := Ideal) X P σ (ix2 n k) = weight (point X n) (point P k) (σ (ix1 k)) := by
  have eX : ∀ d : Fin 2, idx_main_v3 (idx_main_v4 (idx_main_v9 (ix2 n k))) d = ix2 n d := fun d =>
    funext fun a => Fin.ext (by match a with | ⟨0, _⟩ => rfl | ⟨1, _⟩ => rfl)
  have eL : ∀ d : Fin 2, lidx_main_v6 (ix2 n k) d = ix2 n d := fun d =>
    funext fun a => Fin.ext (by match a with | ⟨0, _⟩ => rfl | ⟨1, _⟩ => rfl)
  have eR : ∀ d : Fin 2, idx_main_v5 (ridx_main_v6 (ix2 n k) d) = ix2 k d := fun d =>
    funext fun a => Fin.ext (by match a with | ⟨0, _⟩ => rfl | ⟨1, _⟩ => rfl)
  have eP : ∀ d : Fin 2, idx_main_v12 (idx_main_v13 (idx_main_v14 (ix2 n k))) d = ix2 k d := fun d =>
    funext fun a => Fin.ext (by match a with | ⟨0, _⟩ => rfl | ⟨1, _⟩ => rfl)
  have eS : idx_main_v19 (idx_main_v20 (ix2 n k)) = ix1 k :=
    funext fun a => Fin.ext (by match a with | ⟨0, _⟩ => rfl)
  rw [val_main_v22_apply, val_main_v21_apply, val_main_v16_apply, val_main_v15_apply, val_main_v10_apply,
    val_main_v9_apply, val_main_v4_apply, val_main_v3_apply, val_main_v8_apply, val_main_v7_apply, val_main_cst_0_apply,
    val_main_v6_apply, val_main_v14_apply, val_main_v13_apply, val_main_v12_apply, val_main_v20_apply, val_main_v19_apply,
    val_main_v18_apply, val_main_v17_apply, val_main_cst_2_apply, val_main_cst_apply, val_main_cst_1_apply]
  simp only [val_main_v2_apply, val_main_v0_apply, val_main_v5_apply, val_main_v1_apply, val_main_v11_apply, eX, eL, eR, eP, eS,
    Ideal.ofBits_def, Ideal.ofBits_zero_f32, zero_add, Ideal.hostUnary_exp_def, Ideal.hostDivf_def, Ideal.hostNegf_def,
    Ideal.negf_def, Ideal.addf_def, Ideal.subf_def, Ideal.mulf_def]
  rfl

/-- The reference's result at `(n, c)` is the pooled value of row `c` of the node values at query point `n`. -/
theorem result_at (n : Fin 262144) (c : Fin 3) :
    val_main_v28 (F := Ideal) X P W σ (ix2 n c) = pooledArray X P W σ (ix2 n c) := by
  have eK : ∀ k : Fin 1024, lidx_main_v24 (ix2 n c) k = ix2 n k := fun k =>
    funext fun a => Fin.ext (by match a with | ⟨0, _⟩ => rfl | ⟨1, _⟩ => rfl)
  have eW : ∀ k : Fin 1024, idx_main_v23 (ridx_main_v24 (ix2 n c) k) = ix2 c k := fun k =>
    funext fun a => Fin.ext (by match a with | ⟨0, _⟩ => rfl | ⟨1, _⟩ => rfl)
  have eD : ∀ k : Fin 1024, idx_main_v25 (idx_main_v26 (idx_main_v27 (ix2 n c))) k = ix2 n k := fun k =>
    funext fun a => Fin.ext (by match a with | ⟨0, _⟩ => rfl | ⟨1, _⟩ => rfl)
  rw [val_main_v28_apply, val_main_v24_apply, val_main_v27_apply, val_main_v26_apply, val_main_v25_apply, val_main_cst_3_apply,
    pooledArray_apply]
  simp only [val_main_v23_apply, eK, eW, eD, weight_at, Ideal.ofBits_def, Ideal.ofBits_zero_f32, zero_add, Ideal.hostDivf_def]
  rfl

/-- The reference's result array is the pooled array. -/
theorem result_eq : val_main_v28 (F := Ideal) X P W σ = pooledArray X P W σ :=
  funext fun i => by
    obtain ⟨n, c, rfl⟩ : ∃ (n : Fin 262144) (c : Fin 3), i = ix2 n c := ⟨i 0, i 1, eq_ix2 i⟩
    exact result_at X P W σ n c

end Cert.ReferenceIdeal.Pooling

end
-- ==== Proof.lean ====
/-
  Gaussian-kernel pooling of 262144 query points of the plane against 1024 nodes: a kernel that works on blocks of 2048
  query rows, against the whole computation at once.

  Both programs compute, for query point `n` and row `c` of the node values,
    (∑ k, K (n, k) · W (c, k)) / (∑ k, K (n, k)),   K (n, k) = exp (−((‖X n‖² − 2⟨X n, P k⟩) + ‖P k‖²) / (2 σ k)),
  with the coordinates read as the signed integers their words denote (`Proof/Spec.lean`). On the extended reals the two
  differ only in form: the kernel negates by subtracting from zero where the reference negates, takes its products on the
  matrix unit into a zero accumulator where the reference contracts on the host, and takes its sums on the lanes from the
  zero word where the reference's sums start from a zero constant; zero is neutral for the sum and `0 − D = −D` at every
  extended real, infinite ones included, so no finiteness of the inputs is used. The kernel's value is read block by block
  (`Proof/KernelPayload.lean`, `Proof/KernelArray.lean`): a row's pooled value depends on no other row, so the block of
  rows `2048 t … 2048 t + 2047` that grid point `t` writes is that block of the pooled array, and the 128 blocks cover it.
  The reference's value is read one operation at a time (`Proof/RefValue.lean`).

  The three frames are the generated ones (the reference's its generated run with the result dropped); the idealization
  rewrote no operation, so what it must preserve is nothing.
-/
import proofs.«122626_j60172491817331_1_alg».proof.Defs
import proofs.«122626_j60172491817331_1_alg».proof.Proof.Gen.Kernel
import proofs.«122626_j60172491817331_1_alg».proof.Proof.Gen.Kernel.Skeleton
import proofs.«122626_j60172491817331_1_alg».proof.Proof.Gen.Kernel.Launch
import proofs.«122626_j60172491817331_1_alg».proof.Proof.Gen.Kernel.Points
import proofs.«122626_j60172491817331_1_alg».proof.Proof.Gen.Kernel.Frame
import proofs.«122626_j60172491817331_1_alg».proof.Proof.Gen.KernelIdeal
import proofs.«122626_j60172491817331_1_alg».proof.Proof.Gen.KernelIdeal.Skeleton
import proofs.«122626_j60172491817331_1_alg».proof.Proof.Gen.KernelIdeal.Launch
import proofs.«122626_j60172491817331_1_alg».proof.Proof.Gen.KernelIdeal.Points
import proofs.«122626_j60172491817331_1_alg».proof.Proof.Gen.KernelIdeal.Frame
import proofs.«122626_j60172491817331_1_alg».proof.Proof.Gen.ReferenceIdeal
import proofs.«122626_j60172491817331_1_alg».proof.Proof.Gen.Pre_finite_inputs
import proofs.«122626_j60172491817331_1_alg».proof.Proof.Gen.KernelIdeal.Value
import proofs.«122626_j60172491817331_1_alg».proof.Proof.Gen.ReferenceIdeal.Run
import proofs.«122626_j60172491817331_1_alg».proof.Proof.Gen.ReferenceIdeal.Read
import proofs.«122626_j60172491817331_1_alg».proof.Proof.KernelArray
import proofs.«122626_j60172491817331_1_alg».proof.Proof.RefValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments, the kernel's result array ends at the pooled array of its arguments
    and the reference's at the pooled array of its own: the same array. -/
theorem algebraic : Cert.algebraic_KernelIdeal_ReferenceIdeal := by
  intro m ρ m' ρ' _ hagree
  refine ⟨fun c => Cert.KernelIdeal.Pooling.result m c, Cert.KernelIdeal.Pooling.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Pooling.result m c
  refine (Cert.ReferenceIdeal.Read.val_main_v28_eq _ _ _ _).trans ?_
  rw [Cert.ReferenceIdeal.Pooling.result_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
